-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S_ : Shape := ⟨0, ![]⟩

class Facts : Prop where
  bcast_S_S64x256x3200 : S_.BroadcastsInDim S64x256x3200 (![] : Fin 0 → Fin S64x256x3200.rank)
  reducesTo_S64x256x3200_S_d0_1_2 : S64x256x3200.ReducesTo [0, 1, 2] S_
  h_S_ : 0 < S_.numel
  bcast_S_S64x256x5x3 : S_.BroadcastsInDim S64x256x5x3 (![] : Fin 0 → Fin S64x256x5x3.rank)
  reducesTo_S64x256x5x3_S_d0_1_2_3 : S64x256x5x3.ReducesTo [0, 1, 2, 3] S_
  bcast_S_S20x3x3215 : S_.BroadcastsInDim S20x3x3215 (![] : Fin 0 → Fin S20x3x3215.rank)
  reducesTo_S20x3x3215_S_d0_1_2 : S20x3x3215.ReducesTo [0, 1, 2] S_
  bcast_S_S20x3 : S_.BroadcastsInDim S20x3 (![] : Fin 0 → Fin S20x3.rank)
  reducesTo_S20x3_S_d0_1 : S20x3.ReducesTo [0, 1] S_

variable [Facts]

def fn_part1 {F : FTy → Type} [FloatOps F] (main_v13 : IVec S_ 1) (main_v16 : IVec S20x3 1) : IVec S_ 1 :=
  let main_c_5 : IVec S_ 1 := constantI S_ 1 1#1
  let main_v17 : IVec S_ 1 := (fun x v => Host.reduce IntOp.andi x v reducesTo_S20x3_S_d0_1 h_S_) main_v16 main_c_5
  let main_v18 : IVec S_ 1 := andi main_v13 main_v17
  main_v18

def fn {F : FTy → Type} [FloatOps F] (main_arg0 : FVec F S64x256x3200 .f32) (main_arg1 : FVec F S64x256x5x3 .f32) (main_arg2 : FVec F S20x3x3215 .f32) (main_arg3 : FVec F S20x3 .f32) : IVec S_ 1 :=
  let main_v0 : FVec F S64x256x3200 .f32 := Host.absf main_arg0
  let main_cst : FVec F S_ .f32 := constant S_ .f32 0x7F800000#32
  let main_v1 : FVec F S64x256x3200 .f32 := broadcastInDim S64x256x3200 ![] bcast_S_S64x256x3200 main_cst
  let main_v2 : IVec S64x256x3200 1 := cmpf .olt main_v0 main_v1
  let main_c : IVec S_ 1 := constantI S_ 1 1#1
  let main_v3 : IVec S_ 1 := (fun x v => Host.reduce IntOp.andi x v reducesTo_S64x256x3200_S_d0_1_2 h_S_) main_v2 main_c
  let main_v4 : FVec F S64x256x5x3 .f32 := Host.absf main_arg1
  let main_cst_0 : FVec F S_ .f32 := constant S_ .f32 0x7F800000#32
  let main_v5 : FVec F S64x256x5x3 .f32 := broadcastInDim S64x256x5x3 ![] bcast_S_S64x256x5x3 main_cst_0
  let main_v6 : IVec S64x256x5x3 1 := cmpf .olt main_v4 main_v5
  let main_c_1 : IVec S_ 1 := constantI S_ 1 1#1
  let main_v7 : IVec S_ 1 := (fun x v => Host.reduce IntOp.andi x v reducesTo_S64x256x5x3_S_d0_1_2_3 h_S_) main_v6 main_c_1
  let main_v8 : IVec S_ 1 := andi main_v3 main_v7
  let main_v9 : FVec F S20x3x3215 .f32 := Host.absf main_arg2
  let main_cst_2 : FVec F S_ .f32 := constant S_ .f32 0x7F800000#32
  let main_v10 : FVec F S20x3x3215 .f32 := broadcastInDim S20x3x3215 ![] bcast_S_S20x3x3215 main_cst_2
  let main_v11 : IVec S20x3x3215 1 := cmpf .olt main_v9 main_v10
  let main_c_3 : IVec S_ 1 := constantI S_ 1 1#1
  let main_v12 : IVec S_ 1 := (fun x v => Host.reduce IntOp.andi x v reducesTo_S20x3x3215_S_d0_1_2 h_S_) main_v11 main_c_3
  let main_v13 : IVec S_ 1 := andi main_v8 main_v12
  let main_v14 : FVec F S20x3 .f32 := Host.absf main_arg3
  let main_cst_4 : FVec F S_ .f32 := constant S_ .f32 0x7F800000#32
  let main_v15 : FVec F S20x3 .f32 := broadcastInDim S20x3 ![] bcast_S_S20x3 main_cst_4
  let main_v16 : IVec S20x3 1 := cmpf .olt main_v14 main_v15
  fn_part1 (F := F) main_v13 main_v16
-- ==== Kernel.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S16384x3200 : Shape := ⟨2, ![16384, 3200]⟩
abbrev S16384x15 : Shape := ⟨2, ![16384, 15]⟩
abbrev S3215x3x20 : Shape := ⟨3, ![3215, 3, 20]⟩
abbrev S3215x60 : Shape := ⟨2, ![3215, 60]⟩
abbrev S3200x60 : Shape := ⟨2, ![3200, 60]⟩
abbrev S15x60 : Shape := ⟨2, ![15, 60]⟩
abbrev S3x20 : Shape := ⟨2, ![3, 20]⟩
abbrev S1x60 : Shape := ⟨2, ![1, 60]⟩
abbrev S16384x60 : Shape := ⟨2, ![16384, 60]⟩
abbrev S2048x3200 : Shape := ⟨2, ![2048, 3200]⟩
abbrev S2048x15 : Shape := ⟨2, ![2048, 15]⟩
abbrev S2048x60 : Shape := ⟨2, ![2048, 60]⟩
abbrev S64x256x3x20 : Shape := ⟨4, ![64, 256, 3, 20]⟩

abbrev nBuf : Space → Nat
  | .hbm => 14
  | .vmem => 9
  | .smem => 0
  | _ => 0

abbrev bufTy : (tb : Table) → Fin (tcTables nBuf tb) → BufTy
  | .hbm, ⟨0, _⟩ => ⟨S64x256x3200, .f32⟩
  | .hbm, ⟨1, _⟩ => ⟨S64x256x5x3, .f32⟩
  | .hbm, ⟨2, _⟩ => ⟨S20x3x3215, .f32⟩
  | .hbm, ⟨3, _⟩ => ⟨S20x3, .f32⟩
  | .hbm, ⟨4, _⟩ => ⟨S16384x3200, .f32⟩
  | .hbm, ⟨5, _⟩ => ⟨S16384x15, .f32⟩
  | .hbm, ⟨6, _⟩ => ⟨S3215x3x20, .f32⟩
  | .hbm, ⟨7, _⟩ => ⟨S3215x60, .f32⟩
  | .hbm, ⟨8, _⟩ => ⟨S3200x60, .f32⟩
  | .hbm, ⟨9, _⟩ => ⟨S15x60, .f32⟩
  | .hbm, ⟨10, _⟩ => ⟨S3x20, .f32⟩
  | .hbm, ⟨11, _⟩ => ⟨S1x60, .f32⟩
  | .hbm, ⟨12, _⟩ => ⟨S16384x60, .f32⟩
  | .hbm, ⟨13, _⟩ => ⟨S64x256x3x20, .f32⟩
  | .local _ .vmem, ⟨0, _⟩ => ⟨S2048x3200, .f32⟩
  | .local _ .vmem, ⟨1, _⟩ => ⟨S2048x3200, .f32⟩
  | .local _ .vmem, ⟨2, _⟩ => ⟨S2048x15, .f32⟩
  | .local _ .vmem, ⟨3, _⟩ => ⟨S2048x15, .f32⟩
  | .local _ .vmem, ⟨4, _⟩ => ⟨S3200x60, .f32⟩
  | .local _ .vmem, ⟨5, _⟩ => ⟨S15x60, .f32⟩
  | .local _ .vmem, ⟨6, _⟩ => ⟨S1x60, .f32⟩
  | .local _ .vmem, ⟨7, _⟩ => ⟨S2048x60, .f32⟩
  | .local _ .vmem, ⟨8, _⟩ => ⟨S2048x60, .f32⟩
  | _, _ => ⟨S64x256x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3200x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256x3200_S16384x3200 : S64x256x3200.ShapeCasts S16384x3200
  shapeCasts_S64x256x5x3_S16384x15 : S64x256x5x3.ShapeCasts S16384x15
  transposes_S20x3x3215_S3215x3x20_2_1_0 : S20x3x3215.Transposes [2, 1, 0] S3215x3x20
  shapeCasts_S3215x3x20_S3215x60 : S3215x3x20.ShapeCasts S3215x60
  slices_S3215x60_S3200x60_0_0 : S3215x60.Slices ![0, 0] S3200x60
  slices_S3215x60_S15x60_3200_0 : S3215x60.Slices ![3200, 0] S15x60
  transposes_S20x3_S3x20_1_0 : S20x3.Transposes [1, 0] S3x20
  shapeCasts_S3x20_S1x60 : S3x20.ShapeCasts S1x60
  inb_S2048x3200_S2048x3200_0_0 : ∀ a, (![0, 0] : Fin 2 → Nat) a + S2048x3200.size a ≤ S2048x3200.size a
  h_S2048x3200 : 0 < S2048x3200.numel
  shapeCasts_S2048x3200_S2048x3200 : S2048x3200.ShapeCasts S2048x3200
  inb_S2048x15_S2048x15_0_0 : ∀ a, (![0, 0] : Fin 2 → Nat) a + S2048x15.size a ≤ S2048x15.size a
  h_S2048x15 : 0 < S2048x15.numel
  shapeCasts_S2048x15_S2048x15 : S2048x15.ShapeCasts S2048x15
  inb_S3200x60_S3200x60_0_0 : ∀ a, (![0, 0] : Fin 2 → Nat) a + S3200x60.size a ≤ S3200x60.size a
  h_S3200x60 : 0 < S3200x60.numel
  shapeCasts_S3200x60_S3200x60 : S3200x60.ShapeCasts S3200x60
  inb_S15x60_S15x60_0_0 : ∀ a, (![0, 0] : Fin 2 → Nat) a + S15x60.size a ≤ S15x60.size a
  h_S15x60 : 0 < S15x60.numel
  shapeCasts_S15x60_S15x60 : S15x60.ShapeCasts S15x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S2048x60 : S1x60.Broadcasts S2048x60
  inb_S2048x60_S2048x60_0_0 : ∀ a, (![0, 0] : Fin 2 → Nat) a + S2048x60.size a ≤ S2048x60.size a
  h_S2048x60 : 0 < S2048x60.numel
  shapeCasts_S16384x60_S64x256x3x20 : S16384x60.ShapeCasts S64x256x3x20
  dot_S2048x3200_S3200x60_S2048x60_1_0_0_1_n_n_wf : DotDims.WF S2048x3200 S3200x60 S2048x60 [1] [0] [0] [1] [] []
  dot_S2048x15_S15x60_S2048x60_1_0_0_1_n_n_wf : DotDims.WF S2048x15 S15x60 S2048x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3200.size a ≤ S16384x3200.size a
  hwx0_0 : ∀ i : grid0.Coords, EltTy.bits .f32 = 32 ∨ (Rect.block (s := S16384x3200) S2048x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x15.size a ≤ S16384x15.size a
  hwx0_1 : ∀ i : grid0.Coords, EltTy.bits .f32 = 32 ∨ (Rect.block (s := S16384x15) S2048x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3200x60.size a ≤ S3200x60.size a
  hwx0_2 : ∀ i : grid0.Coords, EltTy.bits .f32 = 32 ∨ (Rect.block (s := S3200x60) S3200x60.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x60.size a ≤ S15x60.size a
  hwx0_3 : ∀ i : grid0.Coords, EltTy.bits .f32 = 32 ∨ (Rect.block (s := S15x60) S15x60.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x60.size a ≤ S1x60.size a
  hwx0_4 : ∀ i : grid0.Coords, EltTy.bits .f32 = 32 ∨ (Rect.block (s := S1x60) S1x60.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x60.size a ≤ S16384x60.size a
  hwx0_5 : ∀ i : grid0.Coords, EltTy.bits .f32 = 32 ∨ (Rect.block (s := S16384x60) S2048x60.size (cc0_transform_5 i) (hinb0_5 i)).WholeWords (EltTy.packing .f32)

variable [Facts₀]

def dot_S2048x3200_S3200x60_S2048x60_1_0_0_1_n_n : DotDims S2048x3200 S3200x60 S2048x60 where
  lhsContracting := [1]
  rhsContracting := [0]
  lhsNonContracting := [0]
  rhsNonContracting := [1]
  lhsBatch := []
  rhsBatch := []
  wf := dot_S2048x3200_S3200x60_S2048x60_1_0_0_1_n_n_wf
def dot_S2048x15_S15x60_S2048x60_1_0_0_1_n_n : DotDims S2048x15 S15x60 S2048x60 where
  lhsContracting := [1]
  rhsContracting := [0]
  lhsNonContracting := [0]
  rhsNonContracting := [1]
  lhsBatch := []
  rhsBatch := []
  wf := dot_S2048x15_S15x60_S2048x60_1_0_0_1_n_n_wf

abbrev win0_0 : Pipeline.Window sig grid0 :=
  Pipeline.Window.ofSpec (Memref.whole main_v0) S2048x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3200x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S15x60.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x60.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S64x256x15 : Shape := ⟨3, ![64, 256, 15]⟩
abbrev S64x256x3215 : Shape := ⟨3, ![64, 256, 3215]⟩
abbrev S20x3x64x256 : Shape := ⟨4, ![20, 3, 64, 256]⟩
abbrev S64x256x3x20 : Shape := ⟨4, ![64, 256, 3, 20]⟩
abbrev S3x20 : Shape := ⟨2, ![3, 20]⟩
abbrev S1x1x3x20 : Shape := ⟨4, ![1, 1, 3, 20]⟩

abbrev nBuf : Space → Nat
  | .hbm => 12
  | .vmem => 0
  | .smem => 0
  | _ => 0

abbrev bufTy : (tb : Table) → Fin (tcTables nBuf tb) → BufTy
  | .hbm, ⟨0, _⟩ => ⟨S64x256x3200, .f32⟩
  | .hbm, ⟨1, _⟩ => ⟨S64x256x5x3, .f32⟩
  | .hbm, ⟨2, _⟩ => ⟨S20x3x3215, .f32⟩
  | .hbm, ⟨3, _⟩ => ⟨S20x3, .f32⟩
  | .hbm, ⟨4, _⟩ => ⟨S64x256x15, .f32⟩
  | .hbm, ⟨5, _⟩ => ⟨S64x256x3215, .f32⟩
  | .hbm, ⟨6, _⟩ => ⟨S20x3x64x256, .f32⟩
  | .hbm, ⟨7, _⟩ => ⟨S64x256x3x20, .f32⟩
  | .hbm, ⟨8, _⟩ => ⟨S3x20, .f32⟩
  | .hbm, ⟨9, _⟩ => ⟨S1x1x3x20, .f32⟩
  | .hbm, ⟨10, _⟩ => ⟨S64x256x3x20, .f32⟩
  | .hbm, ⟨11, _⟩ => ⟨S64x256x3x20, .f32⟩
  | _, _ => ⟨S64x256x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S64x256x5x3_S64x256x15 : S64x256x5x3.ShapeCasts S64x256x15
  concatenates_S64x256x3200_S64x256x15_S64x256x3215_d2 : Shape.Concatenates [S64x256x3200, S64x256x15] S64x256x3215 2
  transposes_S20x3x64x256_S64x256x3x20_2_3_1_0 : S20x3x64x256.Transposes [2, 3, 1, 0] S64x256x3x20
  transposes_S20x3_S3x20_1_0 : S20x3.Transposes [1, 0] S3x20
  bcast_S3x20_S1x1x3x20_2_3 : S3x20.BroadcastsInDim S1x1x3x20 (![2, 3] : Fin 2 → Fin S1x1x3x20.rank)
  bcast_S1x1x3x20_S64x256x3x20_0_1_2_3 : S1x1x3x20.BroadcastsInDim S64x256x3x20 (![0, 1, 2, 3] : Fin 4 → Fin S64x256x3x20.rank)
  dot_S20x3x3215_S64x256x3215_S20x3x64x256_2_2_01_01_n_n_wf : DotDims.WF S20x3x3215 S64x256x3215 S20x3x64x256 [2] [2] [0, 1] [0, 1] [] []

variable [Facts₀]

def dot_S20x3x3215_S64x256x3215_S20x3x64x256_2_2_01_01_n_n : DotDims S20x3x3215 S64x256x3215 S20x3x64x256 where
  lhsContracting := [2]
  rhsContracting := [2]
  lhsNonContracting := [0, 1]
  rhsNonContracting := [0, 1]
  lhsBatch := []
  rhsBatch := []
  wf := dot_S20x3x3215_S64x256x3215_S20x3x64x256_2_2_01_01_n_n_wf

class Facts : Prop extends Facts₀ where

variable [Facts]
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Entry.lean ====
/-
  One entry of what the kernel body stores.

  The body multiplies its block of flattened rows by the node-feature weights, multiplies its block of seed rows by the
  seed-feature weights (each product accumulated from zero), adds the two and adds the one bias row to every row. Entry
  (p, q) of the stored block is therefore the 3200-term dot product plus the 15-term dot product plus bias (0, q).
-/
import proofs.«132317_j25262997635872_2_alg».proof.Proof.Gen.KernelIdeal.Skeleton
import proofs.«132317_j25262997635872_2_alg».proof.Proof.LibPlainDot
import Idealize.ShloMosaic.Lib.Pipeline.Value
import Idealize.ShloMosaic.Lib.ValueIdx

noncomputable section

namespace Cert.NodeLinear.Body

open Idealize.ShloMosaic Idealize.ShloMosaic.ValueIdx Cert.KernelIdeal Cert.KernelIdeal.Gen

/-- The bias row repeated down the rows: entry (p, q) is the row's entry q. -/
theorem bias_row (x4 : FVec Ideal S1x60 .f32) (p : Fin 2048) (q : Fin 60) :
    broadcastTo S2048x60 x4 broadcasts_S1x60_S2048x60 (ix2 p q) = x4 (ix2 0 q) :=
  broadcastTo_apply x4 broadcasts_S1x60_S2048x60 (ix2 p q) (ix2 0 q) (fun a => match a with
    | ⟨0, _⟩ => by show (0 : Nat) = if (1 : Nat) = 1 then 0 else p.val; rw [if_pos rfl]
    | ⟨1, _⟩ => by show q.val = if (60 : Nat) = 1 then 0 else q.val; rw [if_neg (by decide)])

/-- Entry (p, q) of the block the body stores, from the blocks it loads. -/
theorem entry (x0 : FVec Ideal S2048x3200 .f32) (x1 : FVec Ideal S2048x15 .f32) (x2 : FVec Ideal S3200x60 .f32)
    (x3 : FVec Ideal S15x60 .f32) (x4 : FVec Ideal S1x60 .f32) (p : Fin 2048) (q : Fin 60) :
    k0_pay1 (F := Ideal) x0 x1 x2 x3 x4 (ix2 p q)
      = (∑ c : Fin 3200, x0 (ix2 p c) * x2 (ix2 c q)) + (∑ s : Fin 15, x1 (ix2 p s) * x3 (ix2 s q)) + x4 (ix2 0 q) := by
  unfold k0_pay1
  simp only [shapeCast_self]
  show matmul dot_S2048x3200_S3200x60_S2048x60_1_0_0_1_n_n (some .fp32) x0 x2 (constant (F := Ideal) S2048x60 .f32 0x00000000#32) (ix2 p q)
      + matmul dot_S2048x15_S15x60_S2048x60_1_0_0_1_n_n (some .fp32) x1 x3 (constant (F := Ideal) S2048x60 .f32 0x00000000#32) (ix2 p q)
      + broadcastTo S2048x60 x4 broadcasts_S1x60_S2048x60 (ix2 p q) = _
  refine congrArg₂ (· + ·) (congrArg₂ (· + ·) ?_ ?_) (bias_row x4 p q)
  · exact PlainDot.matmul_zero_apply (M := 2048) (K := 3200) (N := 60) dot_S2048x3200_S3200x60_S2048x60_1_0_0_1_n_n rfl
      (some .fp32) x0 x2 (ix2 p q)
  · exact PlainDot.matmul_zero_apply (M := 2048) (K := 15) (N := 60) dot_S2048x15_S15x60_S2048x60_1_0_0_1_n_n rfl
      (some .fp32) x1 x3 (ix2 p q)

end Cert.NodeLinear.Body

end
-- ==== Proof.Spec.lean ====
/-
  The layer both programs compute, entry by entry, on the extended reals.

  Twenty cloned linear maps from 3215 features to 3 channels are applied to every one of the 64 × 256 positions. A position's
  3215 features are its 3200 node features followed by its 15 seed features, the 5 × 3 seed block read row by row. Entry
  (n, t, o, k) of the result is the dot product of that feature row with row (k, o, ·) of the weights, plus the bias b (k, o).
  The sum over the 3215 features is written here already cut where the two kinds of feature meet: 3200 terms, then 15.
-/
import Idealize.ShloMosaic.PureOps.Ideal
import Idealize.ShloMosaic.Lib.ValueIdx

noncomputable section

namespace Cert.NodeLinear

open Idealize.ShloMosaic Idealize.ShloMosaic.ValueIdx

/-- Node feature `c` as a column of the weights' feature axis. -/
abbrev colX (c : Fin 3200) : Fin 3215 := ⟨c.val, by omega⟩
/-- Seed feature `s` as a column of the weights' feature axis: the seed features follow the 3200 node features. -/
abbrev colS (s : Fin 15) : Fin 3215 := ⟨3200 + s.val, by omega⟩
/-- The seed a flattened seed feature belongs to, -/
abbrev seedOf (s : Fin 15) : Fin 5 := ⟨s.val / 3, by omega⟩
/-- and its channel within that seed. -/
abbrev chanOf (s : Fin 15) : Fin 3 := ⟨s.val % 3, by omega⟩

/-- Entry (n, t, o, k) of the layer: node features against the first 3200 weight columns, seed features against the last 15,
    and the bias. -/
def layer (x : (⟨3, ![64, 256, 3200]⟩ : Shape).Idx → EReal) (sd : (⟨4, ![64, 256, 5, 3]⟩ : Shape).Idx → EReal)
    (W : (⟨3, ![20, 3, 3215]⟩ : Shape).Idx → EReal) (b : (⟨2, ![20, 3]⟩ : Shape).Idx → EReal)
    (n : Fin 64) (t : Fin 256) (o : Fin 3) (k : Fin 20) : EReal :=
  (∑ c : Fin 3200, x (ix3 n t c) * W (ix3 k o (colX c)))
    + (∑ s : Fin 15, sd (ix4 n t (seedOf s) (chanOf s)) * W (ix3 k o (colS s)))
    + b (ix2 k o)

/-- The result array: `layer` at an index's four coordinates. -/
def result (x : (⟨3, ![64, 256, 3200]⟩ : Shape).Idx → EReal) (sd : (⟨4, ![64, 256, 5, 3]⟩ : Shape).Idx → EReal)
    (W : (⟨3, ![20, 3, 3215]⟩ : Shape).Idx → EReal) (b : (⟨2, ![20, 3]⟩ : Shape).Idx → EReal) :
    (⟨4, ![64, 256, 3, 20]⟩ : Shape).Idx → EReal :=
  fun i => layer x sd W b (i 0) (i 1) (i 2) (i 3)

/-- A sum over the 3215 features is the sum over the node features plus the sum over the seed features: addition of
    extended reals is associative and commutative, so no finiteness is asked. -/
theorem sum_features (f : Fin 3215 → EReal) :
    ∑ k : Fin 3215, f k = (∑ c : Fin 3200, f (colX c)) + ∑ s : Fin 15, f (colS s) :=
  Fin.sum_univ_add (a := 3200) (b := 15) f

/-- The matrix form of the same layer on flattened rows: entry (r, j) of `X0 · Wx + X1 · Ws` plus the bias row. -/
def rows (X0 : (⟨2, ![16384, 3200]⟩ : Shape).Idx → EReal) (X1 : (⟨2, ![16384, 15]⟩ : Shape).Idx → EReal)
    (Wx : (⟨2, ![3200, 60]⟩ : Shape).Idx → EReal) (Ws : (⟨2, ![15, 60]⟩ : Shape).Idx → EReal)
    (bias : (⟨2, ![1, 60]⟩ : Shape).Idx → EReal) (r : Fin 16384) (j : Fin 60) : EReal :=
  (∑ c : Fin 3200, X0 (ix2 r c) * Wx (ix2 c j)) + (∑ s : Fin 15, X1 (ix2 r s) * Ws (ix2 s j)) + bias (ix2 0 j)

/-- The flattened result matrix: `rows` at an index's two coordinates. -/
def rowsArr (X0 : (⟨2, ![16384, 3200]⟩ : Shape).Idx → EReal) (X1 : (⟨2, ![16384, 15]⟩ : Shape).Idx → EReal)
    (Wx : (⟨2, ![3200, 60]⟩ : Shape).Idx → EReal) (Ws : (⟨2, ![15, 60]⟩ : Shape).Idx → EReal)
    (bias : (⟨2, ![1, 60]⟩ : Shape).Idx → EReal) : (⟨2, ![16384, 60]⟩ : Shape).Idx → EReal :=
  fun i => rows X0 X1 Wx Ws bias (i 0) (i 1)

end Cert.NodeLinear

end
-- ==== Proof.Layout.lean ====
/-
  The kernel program's host re-layouts, read entry by entry.

  Before the call the program flattens the positions (n, t) to rows n · 256 + t, both of the node features and of the seed
  block (whose 5 × 3 entries become 15 row entries in row-major order), transposes the weights to (feature, channel, clone),
  merges (channel, clone) = (o, k) into the column o · 20 + k, cuts the weight matrix into its first 3200 rows and its last 15,
  and lays the transposed bias out as one row of the same 60 columns. After the call it unflattens rows and columns back to
  (n, t, o, k). Read through these maps the matrix form `rows` at row n · 256 + t and column o · 20 + k is the layer's entry
  (n, t, o, k), term by term.
-/
import proofs.«132317_j25262997635872_2_alg».proof.Proof.Gen.KernelIdeal
import proofs.«132317_j25262997635872_2_alg».proof.Proof.Spec
import Idealize.ShloMosaic.Lib.Pipeline.Value
import Idealize.ShloMosaic.Lib.ValueIdx

noncomputable section

namespace Cert.NodeLinear.Layout

open Idealize.ShloMosaic Idealize.ShloMosaic.ValueIdx Cert.KernelIdeal Cert.KernelIdeal.Gen Cert.NodeLinear

/-- Position (n, t) as a flattened row. -/
abbrev rowOf (n : Fin 64) (t : Fin 256) : Fin 16384 := ⟨n.val * 256 + t.val, by omega⟩
/-- Channel o of clone k as a merged column. -/
abbrev colOf (o : Fin 3) (k : Fin 20) : Fin 60 := ⟨o.val * 20 + k.val, by omega⟩

variable (a0 : FVec Ideal S64x256x3200 .f32) (a1 : FVec Ideal S64x256x5x3 .f32) (a2 : FVec Ideal S20x3x3215 .f32)
  (a3 : FVec Ideal S20x3 .f32)

/-- The node features with positions flattened to rows. -/
def rowsX : FVec Ideal S16384x3200 .f32 := shapeCast S16384x3200 a0 shapeCasts_S64x256x3200_S16384x3200
/-- The seed blocks with positions flattened to rows and each block to 15 entries. -/
def rowsS : FVec Ideal S16384x15 .f32 := shapeCast S16384x15 a1 shapeCasts_S64x256x5x3_S16384x15
/-- The weights as a matrix: feature by merged (channel, clone) column. -/
def wT : FVec Ideal S3215x60 .f32 :=
  shapeCast S3215x60 (transpose S3215x3x20 [2, 1, 0] a2 transposes_S20x3x3215_S3215x3x20_2_1_0) shapeCasts_S3215x3x20_S3215x60
/-- Its rows for the node features, -/
def wX : FVec Ideal S3200x60 .f32 := extractStridedSlice S3200x60 ![0, 0] (wT a2) slices_S3215x60_S3200x60_0_0
/-- and for the seed features. -/
def wS : FVec Ideal S15x60 .f32 := extractStridedSlice S15x60 ![3200, 0] (wT a2) slices_S3215x60_S15x60_3200_0
/-- The bias as one row over the merged columns. -/
def biasRow : FVec Ideal S1x60 .f32 := shapeCast S1x60 (transpose S3x20 [1, 0] a3 transposes_S20x3_S3x20_1_0) shapeCasts_S3x20_S1x60

theorem rowsX_apply (n : Fin 64) (t : Fin 256) (c : Fin 3200) : rowsX a0 (ix2 (rowOf n t) c) = a0 (ix3 n t c) :=
  shapeCast_apply a0 shapeCasts_S64x256x3200_S16384x3200 (ix2 (rowOf n t) c) (ix3 n t c) (by
    rw [Shape.rowMajor_val_three, Shape.rowMajor_val_two]
    show (n.val * 256 + t.val) * 3200 + c.val = (n.val * 256 + t.val) * 3200 + c.val
    rfl)

theorem rowsS_apply (n : Fin 64) (t : Fin 256) (s : Fin 15) :
    rowsS a1 (ix2 (rowOf n t) s) = a1 (ix4 n t (seedOf s) (chanOf s)) :=
  shapeCast_apply a1 shapeCasts_S64x256x5x3_S16384x15 (ix2 (rowOf n t) s) (ix4 n t (seedOf s) (chanOf s)) (by
    rw [Shape.rowMajor_val_four, Shape.rowMajor_val_two]
    show ((n.val * 256 + t.val) * 5 + s.val / 3) * 3 + s.val % 3 = (n.val * 256 + t.val) * 15 + s.val
    omega)

theorem wT_apply (f : Fin 3215) (o : Fin 3) (k : Fin 20) : wT a2 (ix2 f (colOf o k)) = a2 (ix3 k o f) := by
  unfold wT
  rw [shapeCast_apply _ shapeCasts_S3215x3x20_S3215x60 (ix2 f (colOf o k)) (ix3 f o k) (by
    rw [Shape.rowMajor_val_three, Shape.rowMajor_val_two]
    show (f.val * 3 + o.val) * 20 + k.val = f.val * 60 + (o.val * 20 + k.val)
    omega)]
  exact transpose_apply [2, 1, 0] a2 transposes_S20x3x3215_S3215x3x20_2_1_0 (ix3 f o k) (ix3 k o f)
    (fun b => match b with | ⟨0, _⟩ => rfl | ⟨1, _⟩ => rfl | ⟨2, _⟩ => rfl)

theorem wX_apply (c : Fin 3200) (o : Fin 3) (k : Fin 20) : wX a2 (ix2 c (colOf o k)) = a2 (ix3 k o (colX c)) := by
  unfold wX
  rw [extractStridedSlice_apply ![0, 0] (wT a2) slices_S3215x60_S3200x60_0_0 (ix2 c (colOf o k)) (ix2 (colX c) (colOf o k))
    (fun a => match a with
      | ⟨0, _⟩ => by show c.val = 0 + c.val; omega
      | ⟨1, _⟩ => by show o.val * 20 + k.val = 0 + (o.val * 20 + k.val); omega)]
  exact wT_apply a2 (colX c) o k

theorem wS_apply (s : Fin 15) (o : Fin 3) (k : Fin 20) : wS a2 (ix2 s (colOf o k)) = a2 (ix3 k o (colS s)) := by
  unfold wS
  rw [extractStridedSlice_apply ![3200, 0] (wT a2) slices_S3215x60_S15x60_3200_0 (ix2 s (colOf o k)) (ix2 (colS s) (colOf o k))
    (fun a => match a with
      | ⟨0, _⟩ => by show 3200 + s.val = 3200 + s.val; rfl
      | ⟨1, _⟩ => by show o.val * 20 + k.val = 0 + (o.val * 20 + k.val); omega)]
  exact wT_apply a2 (colS s) o k

theorem biasRow_apply (o : Fin 3) (k : Fin 20) : biasRow a3 (ix2 0 (colOf o k)) = a3 (ix2 k o) := by
  unfold biasRow
  rw [shapeCast_apply _ shapeCasts_S3x20_S1x60 (ix2 0 (colOf o k)) (ix2 o k) (by
    rw [Shape.rowMajor_val_two, Shape.rowMajor_val_two]
    show o.val * 20 + k.val = 0 * 60 + (o.val * 20 + k.val)
    omega)]
  exact transpose_apply [1, 0] a3 transposes_S20x3_S3x20_1_0 (ix2 o k) (ix2 k o)
    (fun b => match b with | ⟨0, _⟩ => rfl | ⟨1, _⟩ => rfl)

/-- The matrix form at row n · 256 + t and column o · 20 + k is the layer at (n, t, o, k). -/
theorem rows_eq (n : Fin 64) (t : Fin 256) (o : Fin 3) (k : Fin 20) :
    rows (rowsX a0) (rowsS a1) (wX a2) (wS a2) (biasRow a3) (rowOf n t) (colOf o k) = layer a0 a1 a2 a3 n t o k := by
  unfold rows layer
  simp only [rowsX_apply, rowsS_apply, wX_apply, wS_apply, biasRow_apply]

/-- The flattened result matrix, unflattened, is the layer's result array. -/
theorem unflatten :
    shapeCast S64x256x3x20 (rowsArr (rowsX a0) (rowsS a1) (wX a2) (wS a2) (biasRow a3)) shapeCasts_S16384x60_S64x256x3x20
      = result a0 a1 a2 a3 := by
  funext i
  obtain ⟨n, t, o, k, rfl⟩ : ∃ (n : Fin 64) (t : Fin 256) (o : Fin 3) (k : Fin 20), i = ix4 n t o k :=
    ⟨i 0, i 1, i 2, i 3, eq_ix4 i⟩
  rw [shapeCast_apply _ shapeCasts_S16384x60_S64x256x3x20 (ix4 n t o k) (ix2 (rowOf n t) (colOf o k)) (by
    rw [Shape.rowMajor_val_two, Shape.rowMajor_val_four]
    show (n.val * 256 + t.val) * 60 + (o.val * 20 + k.val) = ((n.val * 256 + t.val) * 3 + o.val) * 20 + k.val
    omega)]
  exact rows_eq a0 a1 a2 a3 n t o k

end Cert.NodeLinear.Layout

end
-- ==== Proof.KernelValue.lean ====
/-
  What the kernel program leaves in its result array.

  The call runs over eight grid points; point t is handed rows 2048 · t … 2048 · t + 2047 of the flattened node features and
  of the flattened seed blocks, the whole of both weight matrices and the bias row, and writes back rows 2048 · t … of the
  flattened result. So the block point t writes back is block t of ONE matrix — the matrix form `rows` of the arrays the
  call is given — and since the eight blocks tile the 16384 rows, the flattened result is that matrix. The host lines around
  the call are re-layouts: the arrays the call is given are the flattened arguments, and the program's result is the
  flattened result unflattened, which is the layer's result array.
-/
import proofs.«132317_j25262997635872_2_alg».proof.Proof.Gen.KernelIdeal.Frame
import proofs.«132317_j25262997635872_2_alg».proof.Proof.Entry
import proofs.«132317_j25262997635872_2_alg».proof.Proof.Layout
import proofs.«132317_j25262997635872_2_alg».proof.Proof.Spec
import Idealize.ShloMosaic.Lib.Pipeline.Value
import Idealize.ShloMosaic.Lib.StableHlo.Run
import Idealize.ShloMosaic.Lib.Tactic

noncomputable section

namespace Cert.NodeLinear.Kernel

open Idealize.ShloMosaic Idealize.ShloMosaic.TcCoe Idealize.SL.Sem Idealize.ShloMosaic.ValueIdx
open Idealize.ShloMosaic.Pipeline (Dat)
open Cert.KernelIdeal Cert.KernelIdeal.Gen Cert.NodeLinear

variable (m : (ℓ : Loc nD τ sig) → Buf (Elt Ideal) ℓ) (ρ : Dev nD → PrngReg)

/-! ## The arrays the call is given -/

/-- The call's first operand is the node features with positions flattened to rows. -/
theorem given_rowsX (c : Dev nD) :
    (V m c main_v0 : FVec Ideal S16384x3200 .f32) = Layout.rowsX (m ((c : Thread nD τ).loc main_arg0)) := by
  show StableHlo.after hostOps0 (fun b => m (c, b)) (Proc.devRef .tc main_v0) = _
  after_results
  rfl

/-- Its second operand is the seed blocks, flattened the same way. -/
theorem given_rowsS (c : Dev nD) :
    (V m c main_v1 : FVec Ideal S16384x15 .f32) = Layout.rowsS (m ((c : Thread nD τ).loc main_arg1)) := by
  show StableHlo.after hostOps0 (fun b => m (c, b)) (Proc.devRef .tc main_v1) = _
  after_results
  rfl

/-- Its third operand is the weight matrix's rows for the node features, -/
theorem given_wX (c : Dev nD) :
    (V m c main_v4 : FVec Ideal S3200x60 .f32) = Layout.wX (m ((c : Thread nD τ).loc main_arg2)) := by
  show StableHlo.after hostOps0 (fun b => m (c, b)) (Proc.devRef .tc main_v4) = _
  after_results
  rfl

/-- its fourth the rows for the seed features, -/
theorem given_wS (c : Dev nD) :
    (V m c main_v5 : FVec Ideal S15x60 .f32) = Layout.wS (m ((c : Thread nD τ).loc main_arg2)) := by
  show StableHlo.after hostOps0 (fun b => m (c, b)) (Proc.devRef .tc main_v5) = _
  after_results
  rfl

/-- and its fifth the bias row. -/
theorem given_bias (c : Dev nD) :
    (V m c main_v7 : FVec Ideal S1x60 .f32) = Layout.biasRow (m ((c : Thread nD τ).loc main_arg3)) := by
  show StableHlo.after hostOps0 (fun b => m (c, b)) (Proc.devRef .tc main_v7) = _
  after_results
  rfl

/-! ## The blocks at a grid point -/

theorem hz : (![0, 0] : Fin 2 → Nat) = fun _ => 0 := funext fun a => by fin_cases a <;> rfl

/-- The printed index maps over the grid: the row-blocked operands and the result are at block row t, the weights and the
    bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block, as a row of the flattened arrays. -/
abbrev blockRow (t : Fin cfg0.N) (p : Fin 2048) : Fin 16384 :=
  ⟨t.val * 2048 + p.val, by have ht : t.val < 8 := lt_of_lt_of_eq t.isLt N_0; omega⟩

/-- Point t's block of the flattened node features is rows 2048 · t … of them. -/
theorem blockX (c : Dev nD) (t : Fin cfg0.N) (p : Fin 2048) (f : Fin 3200) :
    (iblk m c 0 t : FVec Ideal S2048x3200 .f32) (ix2 p f) = (V m c main_v0 : FVec Ideal S16384x3200 .f32) (ix2 (blockRow t p) f) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 2048 + 1 * p.val = t.val * 2048 + p.val; rw [e0]; omega
  | ⟨1, _⟩ => show win0_0.index t 1 * 3200 + 1 * f.val = f.val; rw [e1]; omega

/-- Point t's block of the flattened seed blocks is the same rows of them. -/
theorem blockS (c : Dev nD) (t : Fin cfg0.N) (p : Fin 2048) (s : Fin 15) :
    (iblk m c 1 t : FVec Ideal S2048x15 .f32) (ix2 p s) = (V m c main_v1 : FVec Ideal S16384x15 .f32) (ix2 (blockRow t p) s) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t 0 * 2048 + 1 * p.val = t.val * 2048 + p.val; rw [e0]; omega
  | ⟨1, _⟩ => show win0_1.index t 1 * 15 + 1 * s.val = s.val; rw [e1]; omega

/-- Every point is handed the whole node-feature weight matrix, -/
theorem blockWX (c : Dev nD) (t : Fin cfg0.N) (f : Fin 3200) (q : Fin 60) :
    (iblk m c 2 t : FVec Ideal S3200x60 .f32) (ix2 f q) = (V m c main_v4 : FVec Ideal S3200x60 .f32) (ix2 f q) := by
  obtain ⟨-, -, -, -, e0, e1, -⟩ := idx_facts t
  unfold iblk
  rw [View.read_apply]
  show V m c main_v4 _ = V m c main_v4 _
  refine congrArg (V m c main_v4) (funext fun a => Fin.ext ?_)
  match a with
  | ⟨0, _⟩ => show win0_2.index t 0 * 3200 + 1 * f.val = f.val; rw [e0]; omega
  | ⟨1, _⟩ => show win0_2.index t 1 * 60 + 1 * q.val = q.val; rw [e1]; omega

/-- the whole seed-feature weight matrix, -/
theorem blockWS (c : Dev nD) (t : Fin cfg0.N) (s : Fin 15) (q : Fin 60) :
    (iblk m c 3 t : FVec Ideal S15x60 .f32) (ix2 s q) = (V m c main_v5 : FVec Ideal S15x60 .f32) (ix2 s q) := by
  obtain ⟨-, -, -, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_3.index t 0 * 15 + 1 * s.val = s.val; rw [e0]; omega
  | ⟨1, _⟩ => show win0_3.index t 1 * 60 + 1 * q.val = q.val; rw [e1]; omega

/-- and the whole bias row. -/
theorem blockBias (c : Dev nD) (t : Fin cfg0.N) (q : Fin 60) :
    (iblk m c 4 t : FVec Ideal S1x60 .f32) (ix2 0 q) = (V m c main_v7 : FVec Ideal S1x60 .f32) (ix2 0 q) := by
  obtain ⟨-, -, -, -, -, -, -, -, e0, e1, -⟩ := idx_facts t
  unfold iblk
  rw [View.read_apply]
  show V m c main_v7 _ = V m c main_v7 _
  refine congrArg (V m c main_v7) (funext fun a => Fin.ext ?_)
  match a with
  | ⟨0, _⟩ => show win0_4.index t 0 * 1 + 1 * 0 = 0; rw [e0]
  | ⟨1, _⟩ => show win0_4.index t 1 * 60 + 1 * q.val = q.val; rw [e1]; omega

/-- Entry (p, q) of what point t stores is entry (2048 · t + p, q) of the matrix form of the arrays the call is given. -/
theorem stored_entry (c : Dev nD) (t : Fin cfg0.N) (p : Fin 2048) (q : Fin 60) :
    k0_pay1 (F := Ideal) (iblk m c 0 t) (iblk m c 1 t) (iblk m c 2 t) (iblk m c 3 t) (iblk m c 4 t) (ix2 p q)
      = rows (V m c main_v0) (V m c main_v1) (V m c main_v4) (V m c main_v5) (V m c main_v7) (blockRow t p) q := by
  refine (Body.entry (iblk m c 0 t) (iblk m c 1 t) (iblk m c 2 t) (iblk m c 3 t) (iblk m c 4 t) p q).trans ?_
  unfold rows
  refine congrArg₂ (· + ·) (congrArg₂ (· + ·) ?_ ?_) (blockBias m c t q)
  · exact Finset.sum_congr rfl fun f _ => congrArg₂ (· * ·) (blockX m c t p f) (blockWX m c t f q)
  · exact Finset.sum_congr rfl fun s _ => congrArg₂ (· * ·) (blockS m c t p s) (blockWS m c t s q)

/-! ## From blocks to the flattened result -/

/-- The matrix the flattened result ends holding: the matrix form of the arrays the call is given. -/
abbrev given (c : Dev nD) : FVec Ideal S16384x60 .f32 :=
  rowsArr (V m c main_v0) (V m c main_v1) (V m c main_v4) (V m c main_v5) (V m c main_v7)

/-- What point t writes back is block t of that matrix. -/
theorem flushed_eq (c : Dev nD) (t : Fin cfg0.N) :
    (dats m 0 c).flushed 5 t = ((cfg0.win 5).blk t).view.read (Elt Ideal) (given m c) := by
  show (cfg0.win 5).cut (grid0.coords t) ((dats m 0 c).after 5 t) = _
  rw [after0_5]
  unfold out0_5
  rw [View.canon_unit_zero hz]
  simp only [View.ld_unit_zero (S := S2048x3200) hz, View.ld_unit_zero (S := S2048x15) hz,
    View.ld_unit_zero (S := S3200x60) hz, View.ld_unit_zero (S := S15x60) hz, View.ld_unit_zero (S := S1x60) hz]
  obtain ⟨-, -, -, -, -, -, -, -, -, -, e0, e1⟩ := idx_facts t
  funext y
  show k0_pay1 (F := Ideal) (iblk m c 0 t) (iblk m c 1 t) (iblk m c 2 t) (iblk m c 3 t) (iblk m c 4 t) y
    = given m c (((cfg0.win 5).blk t).view.emb y)
  refine ((congrArg (k0_pay1 (F := Ideal) (iblk m c 0 t) (iblk m c 1 t) (iblk m c 2 t) (iblk m c 3 t) (iblk m c 4 t)) (eq_ix2 y)).trans
    (stored_entry m c t (y 0) (y 1))).trans ?_
  have h0 : blockRow t (y 0) = (((cfg0.win 5).blk t).view.emb y) 0 := Fin.ext (by
    show t.val * 2048 + (y 0).val = win0_5.index t 0 * 2048 + 1 * (y 0).val
    rw [e0]; omega)
  have h1 : y 1 = (((cfg0.win 5).blk t).view.emb y) 1 := Fin.ext (by
    show (y 1).val = win0_5.index t 1 * 60 + 1 * (y 1).val
    rw [e1]; omega)
  exact congrArg₂ (rows (V m c main_v0) (V m c main_v1) (V m c main_v4) (V m c main_v5) (V m c main_v7)) h0 h1

/-- An index of the flattened result is in point t's block iff each coordinate is in the block's range on its axis. -/
theorem mem_blk (t : Fin cfg0.N) (i : S16384x60.Idx) :
    i ∈ ((cfg0.win 5).blk t).view.set ↔ ∀ a : Fin 2, win0_5.index t a * S2048x60.size a ≤ (i a).val
      ∧ (i a).val < win0_5.index t a * S2048x60.size a + S2048x60.size a := by
  show i ∈ ((View.whole main_v8).slice (win0_5.rect t)).set ↔ _
  rw [View.set_slice_whole, Rect.mem_set_unit]
  exact Iff.rfl

/-- The eight blocks tile the rows: row r is in the block of point r / 2048. -/
theorem cover (i : S16384x60.Idx) :
    ∃ t : Fin cfg0.N, (cfg0.win 5).flush t = true ∧ i ∈ ((cfg0.win 5).blk t).view.set := by
  have h0 : (i 0).val < 16384 := (i 0).isLt
  have h1 : (i 1).val < 60 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 2048 ≤ (i 0).val ∧ (i 0).val < win0_5.index t 0 * 2048 + 2048
    rw [e0, ht]; omega
  | ⟨1, _⟩ =>
    show win0_5.index t 1 * 60 ≤ (i 1).val ∧ (i 1).val < win0_5.index t 1 * 60 + 60
    rw [e1]; omega

/-- So the flattened result ends holding the matrix form of the arrays the call is given. -/
theorem final (c : Dev nD) : (dats m 0 c).arrAt 5 cfg0.N = given m c :=
  (dats m 0 c).arrAt_eq_of_cover 5 (given m c) (fun t _ => flushed_eq m c t) cover

/-! ## The program's result -/

/-- The one host line after the call unflattens the flattened result. -/
theorem tail_result (c : Dev nD) :
    Pipeline.afterTail₀ cfgs (dats m) 0 (V0 m) [hostOps1] c main_v9
      = shapeCast S64x256x3x20 (given m c) shapeCasts_S16384x60_S64x256x3x20 := by
  unfold Pipeline.afterTail₀
  show StableHlo.after hostOps1 _ (Proc.devRef .tc main_v9) = _
  after_results
  exact congrArg (fun X : FVec Ideal S16384x60 .f32 => shapeCast S64x256x3x20 X shapeCasts_S16384x60_S64x256x3x20)
    ((Pipeline.withArrays_arr spec0 launch0.win.arr_inj c _ _ 5).trans (final m c))

/-- The program's result is the layer's result array of the arguments as launched. -/
theorem result_eq (c : Dev nD) :
    Pipeline.afterTail₀ cfgs (dats m) 0 (V0 m) [hostOps1] c main_v9
      = result (m ((c : Thread nD τ).loc main_arg0)) (m ((c : Thread nD τ).loc main_arg1))
          (m ((c : Thread nD τ).loc main_arg2)) (m ((c : Thread nD τ).loc main_arg3)) := by
  rw [tail_result]
  unfold given
  rw [given_rowsX, given_rowsS, given_wX, given_wS, given_bias]
  exact Layout.unflatten _ _ _ _

/-- The run, read: every weakly fair execution of the kernel program terminates with its result array at the layer's result
    of the arguments, and the arguments unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.NodeLinear.Kernel

end
-- ==== Proof.RefValue.lean ====
/-
  The reference's result, entry by entry, is the layer.

  The reference joins each position's node features and its flattened seed block into one row of 3215 features, contracts
  that row with every weight row (k, o, ·) in one product, moves the result's axes to (n, t, o, k) and adds the bias read as
  (o, k) ↦ b (k, o). Entry by entry: feature f of the joined row is node feature f when f < 3200 and seed feature f − 3200
  otherwise, seed feature s sits in the seed block at (s / 3, s % 3), and the sum over the 3215 features splits where the two
  kinds of feature meet. The factors of each term are swapped with respect to the layer's (weights first here): products of
  extended reals commute.
-/
import proofs.«132317_j25262997635872_2_alg».proof.Proof.Gen.ReferenceIdeal.Read
import proofs.«132317_j25262997635872_2_alg».proof.Proof.Spec

noncomputable section

namespace Cert.NodeLinear.Ref

open Idealize.ShloMosaic Idealize.ShloMosaic.ValueIdx Cert.ReferenceIdeal Cert.ReferenceIdeal.Gen Cert.ReferenceIdeal.Read
open Cert.NodeLinear

variable (x0 : (⟨S64x256x3200, .f32⟩ : BufTy).Contents (Elt Ideal)) (x1 : (⟨S64x256x5x3, .f32⟩ : BufTy).Contents (Elt Ideal))
  (x2 : (⟨S20x3x3215, .f32⟩ : BufTy).Contents (Elt Ideal)) (x3 : (⟨S20x3, .f32⟩ : BufTy).Contents (Elt Ideal))

/-- Below 3200 the joined feature row is the node features. -/
theorem feature_node (n : Fin 64) (t : Fin 256) (c : Fin 3200) :
    val_main_v1 (F := Ideal) x0 x1 (ix3 n t (colX c)) = x0 (ix3 n t c) := by
  unfold val_main_v1
  exact concatenate_pair_apply_left (2 : Fin 3) x0 (val_main_v0 (F := Ideal) x1)
    concatenates_S64x256x3200_S64x256x15_S64x256x3215_d2 (ix3 n t (colX c)) rfl (ix3 n t c)
    (fun b => match b with | ⟨0, _⟩ => rfl | ⟨1, _⟩ => rfl | ⟨2, _⟩ => rfl)

/-- From 3200 on it is the seed block read row by row: seed feature s is entry (s / 3, s % 3) of the block. -/
theorem feature_seed (n : Fin 64) (t : Fin 256) (s : Fin 15) :
    val_main_v1 (F := Ideal) x0 x1 (ix3 n t (colS s)) = x1 (ix4 n t (seedOf s) (chanOf s)) := by
  unfold val_main_v1
  rw [concatenate_pair_apply_right (2 : Fin 3) x0 (val_main_v0 (F := Ideal) x1)
    concatenates_S64x256x3200_S64x256x15_S64x256x3215_d2 (ix3 n t (colS s)) rfl rfl (ix3 n t s)
    (fun b hb => match b with | ⟨0, _⟩ => rfl | ⟨1, _⟩ => rfl | ⟨2, _⟩ => absurd rfl hb)
    (by show s.val + 3200 = 3200 + s.val; omega), val_main_v0_apply]
  refine congrArg x1 (funext fun a => Fin.ext ?_)
  have hn : n.val < 64 := n.isLt
  have ht : t.val < 256 := t.isLt
  have hs : s.val < 15 := s.isLt
  match a with
  | ⟨0, _⟩ => show ((n.val * 256 + t.val) * 15 + s.val) / 3840 = n.val; omega
  | ⟨1, _⟩ => show ((n.val * 256 + t.val) * 15 + s.val) / 15 % 256 = t.val; omega
  | ⟨2, _⟩ => show ((n.val * 256 + t.val) * 15 + s.val) / 3 % 5 = s.val / 3; omega
  | ⟨3, _⟩ => show ((n.val * 256 + t.val) * 15 + s.val) % 3 = s.val % 3; omega

/-- The product, with its axes moved: entry (n, t, o, k) contracts weight row (k, o, ·) with the joined row of (n, t). -/
theorem dot_entry (n : Fin 64) (t : Fin 256) (o : Fin 3) (k : Fin 20) :
    val_main_v3 (F := Ideal) x0 x1 x2 (ix4 n t o k)
      = ∑ f : Fin 3215, x2 (ix3 k o f) * val_main_v1 (F := Ideal) x0 x1 (ix3 n t f) := by
  rw [val_main_v3_apply, val_main_v2_apply]
  refine Finset.sum_congr rfl fun f _ => ?_
  have el : lidx_main_v2 (idx_main_v3 (ix4 n t o k)) f = ix3 k o f :=
    funext fun a => Fin.ext (by match a with | ⟨0, _⟩ => rfl | ⟨1, _⟩ => rfl | ⟨2, _⟩ => rfl)
  have er : ridx_main_v2 (idx_main_v3 (ix4 n t o k)) f = ix3 n t f :=
    funext fun a => Fin.ext (by match a with | ⟨0, _⟩ => rfl | ⟨1, _⟩ => rfl | ⟨2, _⟩ => rfl)
  rw [el, er]

/-- The bias, transposed and repeated over the positions: entry (n, t, o, k) is b (k, o). -/
theorem bias_entry (n : Fin 64) (t : Fin 256) (o : Fin 3) (k : Fin 20) :
    val_main_v6 (F := Ideal) x3 (ix4 n t o k) = x3 (ix2 k o) := by
  rw [val_main_v6_apply, val_main_v5_apply, val_main_v4_apply]
  exact congrArg x3 (funext fun a => Fin.ext (by match a with | ⟨0, _⟩ => rfl | ⟨1, _⟩ => rfl))

/-- Entry (n, t, o, k) of the reference's result is the layer's. -/
theorem ref_entry (n : Fin 64) (t : Fin 256) (o : Fin 3) (k : Fin 20) :
    val_main_v7 (F := Ideal) x0 x1 x2 x3 (ix4 n t o k) = layer x0 x1 x2 x3 n t o k := by
  rw [val_main_v7_apply, dot_entry, bias_entry,
    sum_features (fun f => x2 (ix3 k o f) * val_main_v1 (F := Ideal) x0 x1 (ix3 n t f))]
  unfold layer
  show ((∑ c : Fin 3200, x2 (ix3 k o (colX c)) * val_main_v1 (F := Ideal) x0 x1 (ix3 n t (colX c)))
      + ∑ s : Fin 15, x2 (ix3 k o (colS s)) * val_main_v1 (F := Ideal) x0 x1 (ix3 n t (colS s))) + x3 (ix2 k o) = _
  refine congrArg₂ (· + ·) (congrArg₂ (· + ·) ?_ ?_) rfl
  · exact Finset.sum_congr rfl fun c _ => by rw [feature_node, mul_comm]
  · exact Finset.sum_congr rfl fun s _ => by rw [feature_seed, mul_comm]

/-- The reference's result array is the layer's. -/
theorem ref_eq : val_main_v7 (F := Ideal) x0 x1 x2 x3 = result x0 x1 x2 x3 := by
  funext i
  rw [eq_ix4 i]
  exact ref_entry x0 x1 x2 x3 (i 0) (i 1) (i 2) (i 3)

end Cert.NodeLinear.Ref

end
-- ==== Proof.lean ====
/-
  The kernel program and its reference compute one layer: twenty cloned linear maps from 3215 features (3200 node features
  followed by the 15 entries of a 5 × 3 seed block) to 3 channels, applied at each of 64 × 256 positions, plus a bias.

  The reference joins the two kinds of feature into one row and contracts it with the weights in one product. The kernel
  program flattens the positions to 16384 rows, cuts the (transposed, column-merged) weight matrix where the two kinds of
  feature meet, and in a call over eight blocks of 2048 rows adds the two partial products and the bias row; it then unflattens
  the result. On the extended reals the two agree entry by entry because a sum over 3215 terms is the sum of its first 3200 and
  its last 15 terms and products commute; neither law needs a finite input, so the precondition is never opened.

  The frames of the two kernel programs and the reference's run are the generated ones. Written by hand: the layer as one
  function of the arguments (Spec), one entry of the block the body stores (Entry), the host re-layouts read at an index
  (Layout), the blocks put together into the result array and the run read off the generated frame run (KernelValue), and the
  reference's stages read at an index (RefValue).
-/
import proofs.«132317_j25262997635872_2_alg».proof.Defs
import proofs.«132317_j25262997635872_2_alg».proof.Proof.Gen.Kernel
import proofs.«132317_j25262997635872_2_alg».proof.Proof.Gen.Kernel.Frame
import proofs.«132317_j25262997635872_2_alg».proof.Proof.Gen.KernelIdeal
import proofs.«132317_j25262997635872_2_alg».proof.Proof.Gen.KernelIdeal.Frame
import proofs.«132317_j25262997635872_2_alg».proof.Proof.Gen.ReferenceIdeal
import proofs.«132317_j25262997635872_2_alg».proof.Proof.Gen.ReferenceIdeal.Run
import proofs.«132317_j25262997635872_2_alg».proof.Proof.Gen.ReferenceIdeal.Read
import proofs.«132317_j25262997635872_2_alg».proof.Proof.Gen.Pre_finite_inputs
import proofs.«132317_j25262997635872_2_alg».proof.Proof.KernelValue
import proofs.«132317_j25262997635872_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result array at the layer's result of arguments that agree. -/
theorem algebraic : Cert.algebraic_KernelIdeal_ReferenceIdeal := by
  intro m ρ m' ρ' _ hagree
  refine ⟨_, Cert.NodeLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.NodeLinear.Ref.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
